-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) (main_arg2 : FVec F S8192x128 .f32) (main_arg3 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S1024x128 : Shape := ⟨2, ![1024, 128]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 22
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S8192x128, .bf16⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x1, .i32⟩
  | .local _ .vmem, ⟨3, _⟩ => ⟨S1024x1, .i32⟩
  | .local _ .vmem, ⟨4, _⟩ => ⟨S8192x128, .bf16⟩
  | .local _ .vmem, ⟨5, _⟩ => ⟨S1x8192, .i32⟩
  | .local _ .vmem, ⟨6, _⟩ => ⟨S1024, .f32⟩
  | .local _ .vmem, ⟨7, _⟩ => ⟨S1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32 : BitVec 32 := 1024#32
  let v14 : BitVec 32 := Scalar.muli c0_i32 c1024_i32
  v14
def k0_off1 (c0_i32 : BitVec 32) : Fin 2 → Nat :=
  let c1024_i32 : BitVec 32 := 1024#32
  let v14 : BitVec 32 := Scalar.muli c0_i32 c1024_i32
  let v15 : BitVec 32 := v14
  let v16 : Index := Scalar.indexCast v15
  let c0_6 : Index := 0#32
  ![v16.toNat, 0]
def k0_off2 (c0_i32 : BitVec 32) : Fin 2 → Nat :=
  let c0_7 : Index := 0#32
  let c1024_i32 : BitVec 32 := 1024#32
  let v14 : BitVec 32 := Scalar.muli c0_i32 c1024_i32
  let v15 : BitVec 32 := v14
  let v19 : Index := Scalar.indexCast v15
  ![0, v19.toNat]
def k0_mult2 : BitVec 32 :=
  let c1_i32 : BitVec 32 := 1#32
  let c1024_i32_13 : BitVec 32 := 1024#32
  let v36 : BitVec 32 := Scalar.muli c1_i32 c1024_i32_13
  v36
def k0_mult3 : BitVec 32 :=
  let c2_i32 : BitVec 32 := 2#32
  let c1024_i32_21 : BitVec 32 := 1024#32
  let v58 : BitVec 32 := Scalar.muli c2_i32 c1024_i32_21
  v58
def k0_mult4 : BitVec 32 :=
  let c3_i32 : BitVec 32 := 3#32
  let c1024_i32_29 : BitVec 32 := 1024#32
  let v80 : BitVec 32 := Scalar.muli c3_i32 c1024_i32_29
  v80
def k0_mult5 : BitVec 32 :=
  let c4_i32 : BitVec 32 := 4#32
  let c1024_i32_37 : BitVec 32 := 1024#32
  let v102 : BitVec 32 := Scalar.muli c4_i32 c1024_i32_37
  v102
def k0_mult6 : BitVec 32 :=
  let c5_i32 : BitVec 32 := 5#32
  let c1024_i32_45 : BitVec 32 := 1024#32
  let v124 : BitVec 32 := Scalar.muli c5_i32 c1024_i32_45
  v124
def k0_mult7 : BitVec 32 :=
  let c6_i32 : BitVec 32 := 6#32
  let c1024_i32_53 : BitVec 32 := 1024#32
  let v146 : BitVec 32 := Scalar.muli c6_i32 c1024_i32_53
  v146
def k0_mult8 : BitVec 32 :=
  let c7_i32 : BitVec 32 := 7#32
  let c1024_i32_61 : BitVec 32 := 1024#32
  let v168 : BitVec 32 := Scalar.muli c7_i32 c1024_i32_61
  v168
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  dot_S1024x128_S1024x128_S1024x1024_1_1_0_0_n_n_wf : DotDims.WF S1024x128 S1024x128 S1024x1024 [1] [1] [0] [0] [] []
  hrank0 : 0 < grid0.rank
  k0_mult1_dvd : 1024 ∣ k0_mult1.toNat
  k0_off1_inb : ∀ (r : Fin 8), ∀ a, (k0_off1 (BitVec.ofNat 32 r.val)) a + S1024x128.size a ≤ S8192x128.size a
  k0_off2_inb : ∀ (r : Fin 8), ∀ a, (k0_off2 (BitVec.ofNat 32 r.val)) a + S1x1024.size a ≤ S1x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S128x8192, .f32⟩
  | .hbm, ⟨25, _⟩ => ⟨S8192x8192, .f32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_call1_v0 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_call2_cst : Ref sig .tc := ⟨.hbm, 46, rfl⟩
abbrev main_call2_v0 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BlockTerms.lean ====
import proofs.«103898_j40956808135241_2_alg».proof.Proof.Gen.KernelIdeal.Skeleton
import Idealize.ShloMosaic.Lib.Pipeline.Value

/-!
# The kernel body as one term over its four input blocks

At a grid point the body holds a block of 1024 anchor rows, their 1024 labels, and the whole resident sample matrix
(8192 unit rows) with its 8192 labels. It normalises the anchor rows, then scans the samples in eight slabs of 1024
rows: for each slab it forms the 1024 × 1024 similarity matrix, masks it by label equality, and takes each anchor
row's minimum over the same-label columns and maximum over the other columns; the row minima and maxima are carried
from slab to slab by `min` and `max`. The row's loss is `max (neg − pos + margin) 0`.
-/

noncomputable section

namespace Cert.KernelIdeal.BlockTerms

open Cert.KernelIdeal Cert.KernelIdeal.Gen Idealize.ShloMosaic Idealize.SL.Sem

variable {F : FTy → Type} [FloatOps F] [Named F]

/-- The similarity matrix of the (normalised) anchor block against one slab of sample rows: row `p`, column `q` is the
    inner product of anchor row `p` and slab row `q`. -/
def simBlk (v9 : FVec F S1024x128 .bf16) (s : Vec F S1024x128 .bf16) : FVec F S1024x1024 .f32 :=
  matmul dot_S1024x128_S1024x128_S1024x1024_1_1_0_0_n_n none v9 (shapeCast S1024x128 s shapeCasts_S1024x128_S1024x128)
    (constant S1024x1024 .f32 0x00000000#32)

/-- The same-label mask of the anchor block against one slab: row `p`, column `q` says the two labels are equal. -/
def sameBlk (v11 : IVec S1024x1 32) (l : IVec S1x1024 32) : IVec S1024x1024 1 :=
  cmpi .eq (broadcastTo S1024x1024 v11 broadcasts_S1024x1_S1024x1024)
    (broadcastTo S1024x1024 (shapeCast S1x1024 l shapeCasts_S1x1024_S1x1024) broadcasts_S1x1024_S1024x1024)

/-- Each anchor row's minimum similarity over the slab's same-label columns (the other columns read `+∞`). -/
def blkMin (v9 : FVec F S1024x128 .bf16) (v11 : IVec S1024x1 32) (s : Vec F S1024x128 .bf16) (l : IVec S1x1024 32) :
    FVec F S1024x1 .f32 :=
  shapeCast S1024x1 (multiReduction .minimumf [1] S1024
    (select (sameBlk v11 l) (simBlk v9 s) (broadcast S1024x1024 (Named.named κ "pos_big" 0x7149F2CA#32)))
    0x7F800000#32 reduces_S1024x1024_S1024 (.inl rfl) rfl) shapeCasts_S1024_S1024x1

/-- Each anchor row's maximum similarity over the slab's other-label columns (the same-label columns read `-∞`). -/
def blkMax (v9 : FVec F S1024x128 .bf16) (v11 : IVec S1024x1 32) (s : Vec F S1024x128 .bf16) (l : IVec S1x1024 32) :
    FVec F S1024x1 .f32 :=
  shapeCast S1024x1 (multiReduction .maximumf [1] S1024
    (select (sameBlk v11 l) (broadcast S1024x1024 (Named.named κ "neg_big" 0xF149F2CA#32)) (simBlk v9 s))
    0xFF800000#32 reduces_S1024x1024_S1024 (.inl rfl) rfl) shapeCasts_S1024_S1024x1

theorem slab_inb {k : ℕ} (hk : k < 8) : ∀ a, (![1024 * k, 0] : Fin S8192x128.rank → ℕ) a + S1024x128.size a ≤ S8192x128.size a := fun a => by
  match a with
  | ⟨0, _⟩ => show 1024 * k + 1024 ≤ 8192; omega
  | ⟨1, _⟩ => show 0 + 128 ≤ 128; omega

theorem labs_inb {k : ℕ} (hk : k < 8) : ∀ a, (![0, 1024 * k] : Fin S1x8192.rank → ℕ) a + S1x1024.size a ≤ S1x8192.size a := fun a => by
  match a with
  | ⟨0, _⟩ => show 0 + 1 ≤ 1; omega
  | ⟨1, _⟩ => show 1024 * k + 1024 ≤ 8192; omega

/-- Slab `k` of the resident sample matrix: its rows `1024·k … 1024·k + 1023`. -/
def slab (x2 : Vec F S8192x128 .bf16) (k : ℕ) (hk : k < 8) : Vec F S1024x128 .bf16 :=
  View.ld x2 (Rect.unit (s := S8192x128) ![1024 * k, 0] S1024x128.size (slab_inb hk))

/-- The labels of slab `k`. -/
def labs (x3 : Vec F S1x8192 .i32) (k : ℕ) (hk : k < 8) : Vec F S1x1024 .i32 :=
  View.ld x3 (Rect.unit (s := S1x8192) ![0, 1024 * k] S1x1024.size (labs_inb hk))

/-- The running row-minimum after all eight slabs, from `+∞`. -/
def posScan (v9 : FVec F S1024x128 .bf16) (v11 : IVec S1024x1 32) (x2 : Vec F S8192x128 .bf16) (x3 : Vec F S1x8192 .i32) :
    FVec F S1024x1 .f32 :=
  minimumf (minimumf (minimumf (minimumf (minimumf (minimumf (minimumf (minimumf
    (broadcast S1024x1 (Named.named κ "pos_big" 0x7149F2CA#32))
    (blkMin v9 v11 (slab x2 0 (by decide)) (labs x3 0 (by decide))))
    (blkMin v9 v11 (slab x2 1 (by decide)) (labs x3 1 (by decide))))
    (blkMin v9 v11 (slab x2 2 (by decide)) (labs x3 2 (by decide))))
    (blkMin v9 v11 (slab x2 3 (by decide)) (labs x3 3 (by decide))))
    (blkMin v9 v11 (slab x2 4 (by decide)) (labs x3 4 (by decide))))
    (blkMin v9 v11 (slab x2 5 (by decide)) (labs x3 5 (by decide))))
    (blkMin v9 v11 (slab x2 6 (by decide)) (labs x3 6 (by decide))))
    (blkMin v9 v11 (slab x2 7 (by decide)) (labs x3 7 (by decide)))

/-- The running row-maximum after all eight slabs, from `-∞`. -/
def negScan (v9 : FVec F S1024x128 .bf16) (v11 : IVec S1024x1 32) (x2 : Vec F S8192x128 .bf16) (x3 : Vec F S1x8192 .i32) :
    FVec F S1024x1 .f32 :=
  maximumf (maximumf (maximumf (maximumf (maximumf (maximumf (maximumf (maximumf
    (broadcast S1024x1 (Named.named κ "neg_big" 0xF149F2CA#32))
    (blkMax v9 v11 (slab x2 0 (by decide)) (labs x3 0 (by decide))))
    (blkMax v9 v11 (slab x2 1 (by decide)) (labs x3 1 (by decide))))
    (blkMax v9 v11 (slab x2 2 (by decide)) (labs x3 2 (by decide))))
    (blkMax v9 v11 (slab x2 3 (by decide)) (labs x3 3 (by decide))))
    (blkMax v9 v11 (slab x2 4 (by decide)) (labs x3 4 (by decide))))
    (blkMax v9 v11 (slab x2 5 (by decide)) (labs x3 5 (by decide))))
    (blkMax v9 v11 (slab x2 6 (by decide)) (labs x3 6 (by decide))))
    (blkMax v9 v11 (slab x2 7 (by decide)) (labs x3 7 (by decide)))

/-- The body's stored block: per anchor row, `max (neg − pos + margin) 0`. -/
def bodyTerm (x0 : Vec F S1024x128 .f32) (x1 : Vec F S1024x1 .i32) (x2 : Vec F S8192x128 .bf16) (x3 : Vec F S1x8192 .i32) :
    FVec F S1024 .f32 :=
  shapeCast S1024 (maximumf (addf (subf (negScan (k0_pay2 x0) (k0_pay3 x1) x2 x3) (posScan (k0_pay2 x0) (k0_pay3 x1) x2 x3))
    (broadcast S1024x1 (Scalar.ofBits .f32 0x3E99999A#32))) (broadcast S1024x1 (Scalar.ofBits .f32 0x00000000#32)))
    shapeCasts_S1024x1_S1024

end Cert.KernelIdeal.BlockTerms

end
-- ==== Proof.BodyValue.lean ====
import proofs.«103898_j40956808135241_2_alg».proof.Proof.Gen.KernelIdeal.Frame
import Idealize.ShloMosaic.Lib.Pipeline.Value
import proofs.«103898_j40956808135241_2_alg».proof.Proof.BlockTerms
set_option maxRecDepth 16384

noncomputable section

namespace Cert.KernelIdeal.BodyValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Cert.KernelIdeal.BlockTerms

/-- What the body leaves in its output block, whatever staging buffers it runs on: the one term `bodyTerm` of the four
    input blocks. The run's only store covers the block; its payload is the last slab's step over the carried minima and
    maxima of the seven slabs before it, each a load of the resident arrays at the slab's row offset. -/
theorem out_eq_bodyTerm (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S8192x128 .bf16) (harg3 : arg3.IsWhole) (arg4 : Memref sig .tc .vmem S1x8192 .i32) (harg4 : arg4.IsWhole) (arg5 : Memref sig .tc .vmem S1024 .f32) (harg5 : arg5.IsWhole)
    (x0 : Vec F S1024x128 .f32) (x1 : Vec F S1024x1 .i32) (x2 : Vec F S8192x128 .bf16) (x3 : Vec F S1x8192 .i32) :
    out0_A_4 (F := F) c i arg1 harg1 arg2 harg2 arg3 harg3 arg4 harg4 arg5 harg5 x0 x1 x2 x3 = bodyTerm x0 x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero (show (![0] : Fin S1024.rank → Nat) = fun _ => 0 from funext fun a => by match a with | ⟨0, _⟩ => rfl)]
  simp only [View.readAt_eq_ld, harg1.read_unread, harg2.read_unread, harg3.read_unread, harg4.read_unread]
  rw [View.ld_unit_zero (S := S1024x128) (show (![0, 0] : Fin S1024x128.rank → Nat) = fun _ => 0 from funext fun a => by match a with | ⟨0, _⟩ => rfl | ⟨1, _⟩ => rfl),
    View.ld_unit_zero (S := S1024x1) (show (![0, 0] : Fin S1024x1.rank → Nat) = fun _ => 0 from funext fun a => by match a with | ⟨0, _⟩ => rfl | ⟨1, _⟩ => rfl)]
  rfl

end Cert.KernelIdeal.BodyValue

end
-- ==== Proof.LibInf.lean ====
import Idealize.ShloMosaic.PureOps.Ideal
import Idealize.ShloMosaic.PureOps.Ideal.Laws

/-!
# Minima over finite index ranges, on the extended reals

General facts about `min`-folds and infima over `Fin n`: the `+∞` word is the top element, a `min`-fold from `⊤` over
all of `Fin n` is the infimum, an infimum over `Fin (a · b)` splits into `a` blocks of `b`, and a running minimum
that has seen a prefix of the range and then meets the next block has seen the longer prefix.
-/

noncomputable section

namespace Idealize.ShloMosaic.LibInf

open Idealize.ShloMosaic

/-- The f32 word `0x7F800000` denotes `+∞`, the top of the extended reals. -/
theorem ofBits_pinf : Ideal.ofBits .f32 0x7F800000#32 = (⊤ : EReal) := by
  simp [Ideal.ofBits, Ideal.ieee]

/-- A `min`-fold from `⊤` over every index is the infimum. -/
theorem fold_min_top {n : ℕ} (g : Fin n → EReal) :
    (Finset.univ : Finset (Fin n)).fold min (⊤ : EReal) g = ⨅ k, g k := by
  rw [← Finset.inf_univ_eq_iInf]
  rfl

/-- The same from the `+∞` word. -/
theorem fold_min_pinf {n : ℕ} (g : Fin n → EReal) :
    (Finset.univ : Finset (Fin n)).fold min (Ideal.ofBits .f32 0x7F800000#32) g = ⨅ k, g k := by
  rw [ofBits_pinf, fold_min_top]

/-- An infimum over `N = a · b` indices is the infimum over `a` blocks of the infima over each block's `b` indices. -/
theorem iInf_blocks {N a b : ℕ} (hN : N = a * b) (f : Fin N → EReal) :
    ⨅ k, f k = ⨅ i : Fin a, ⨅ j : Fin b, f ⟨b * i.val + j.val, by
      subst hN
      calc b * i.val + j.val < b * i.val + b := Nat.add_lt_add_left j.isLt _
        _ = b * (i.val + 1) := (Nat.mul_succ _ _).symm
        _ ≤ b * a := Nat.mul_le_mul_left _ i.isLt
        _ = a * b := Nat.mul_comm _ _⟩ := by
  subst hN
  refine le_antisymm (le_iInf fun i => le_iInf fun j => iInf_le _ _) (le_iInf fun k => ?_)
  have hab : a * b ≠ 0 := fun h0 => absurd k.isLt (by omega)
  have hb : 0 < b := Nat.pos_of_ne_zero fun h => hab (by rw [h, Nat.mul_zero])
  have hk : k.val / b < a := by
    rw [Nat.div_lt_iff_lt_mul hb]; exact k.isLt
  refine iInf_le_of_le ⟨k.val / b, hk⟩ (iInf_le_of_le ⟨k.val % b, Nat.mod_lt _ hb⟩ (le_of_eq (congrArg f (Fin.ext ?_))))
  exact Nat.div_add_mod _ _

/-- The infimum over the indices below a bound `p` (the others read `⊤`). -/
def infBelow {N : ℕ} (f : Fin N → EReal) (p : ℕ) : EReal := ⨅ k : Fin N, if k.val < p then f k else ⊤

theorem infBelow_zero {N : ℕ} (f : Fin N → EReal) : infBelow f 0 = ⊤ := by
  unfold infBelow
  simp

theorem infBelow_all {N : ℕ} (f : Fin N → EReal) (p : ℕ) (hp : N ≤ p) : infBelow f p = ⨅ k, f k := by
  unfold infBelow
  exact iInf_congr fun k => if_pos (lt_of_lt_of_le k.isLt hp)

/-- A running minimum that has seen the indices below `p` and meets the block `p … p + b − 1` has seen those below
    `p + b`. -/
theorem infBelow_step {N : ℕ} (f : Fin N → EReal) (p b : ℕ) (hpb : p + b ≤ N) :
    min (infBelow f p) (⨅ j : Fin b, f ⟨p + j.val, lt_of_lt_of_le (Nat.add_lt_add_left j.isLt _) hpb⟩) = infBelow f (p + b) := by
  unfold infBelow
  refine le_antisymm (le_iInf fun k => ?_) (le_min (le_iInf fun k => ?_) (le_iInf fun j => ?_))
  · by_cases hk : k.val < p + b
    · rw [if_pos hk]
      by_cases hk' : k.val < p
      · exact (min_le_left _ _).trans ((iInf_le _ k).trans (le_of_eq (if_pos hk')))
      · refine (min_le_right _ _).trans ((iInf_le _ (⟨k.val - p, by omega⟩ : Fin b)).trans (le_of_eq (congrArg f (Fin.ext ?_))))
        show p + (k.val - p) = k.val
        omega
    · rw [if_neg hk]; exact le_top
  · by_cases hk' : k.val < p
    · rw [if_pos hk']
      exact (iInf_le _ k).trans (le_of_eq (if_pos (by omega)))
    · rw [if_neg hk']; exact le_top
  · refine (iInf_le _ (⟨p + j.val, lt_of_lt_of_le (Nat.add_lt_add_left j.isLt _) hpb⟩ : Fin N)).trans (le_of_eq (if_pos ?_))
    show p + j.val < p + b
    exact Nat.add_lt_add_left j.isLt _

end Idealize.ShloMosaic.LibInf

end
-- ==== Proof.LibSup.lean ====
import Idealize.ShloMosaic.PureOps.Ideal
import Idealize.ShloMosaic.PureOps.Ideal.Laws

/-!
# Maxima over finite index ranges, on the extended reals

The order-dual companions of the facts about minima: the `-∞` word is the bottom element, a `max`-fold from `⊥` over
all of `Fin n` is the supremum, and a running maximum that has seen a prefix of the range and then meets the next
block has seen the longer prefix.
-/

noncomputable section

namespace Idealize.ShloMosaic.LibSup

open Idealize.ShloMosaic

/-- The f32 word `0xFF800000` denotes `-∞`, the bottom of the extended reals. -/
theorem ofBits_ninf : Ideal.ofBits .f32 0xFF800000#32 = (⊥ : EReal) := by
  simp [Ideal.ofBits, Ideal.ieee]

/-- A `max`-fold from `⊥` over every index is the supremum. -/
theorem fold_max_bot {n : ℕ} (g : Fin n → EReal) :
    (Finset.univ : Finset (Fin n)).fold max (⊥ : EReal) g = ⨆ k, g k := by
  rw [← Finset.sup_univ_eq_iSup]
  rfl

/-- The same from the `-∞` word. -/
theorem fold_max_ninf {n : ℕ} (g : Fin n → EReal) :
    (Finset.univ : Finset (Fin n)).fold max (Ideal.ofBits .f32 0xFF800000#32) g = ⨆ k, g k := by
  rw [ofBits_ninf, fold_max_bot]

/-- The supremum over the indices below a bound `p` (the others read `⊥`). -/
def supBelow {N : ℕ} (f : Fin N → EReal) (p : ℕ) : EReal := ⨆ k : Fin N, if k.val < p then f k else ⊥

theorem supBelow_zero {N : ℕ} (f : Fin N → EReal) : supBelow f 0 = ⊥ := by
  unfold supBelow
  simp

theorem supBelow_all {N : ℕ} (f : Fin N → EReal) (p : ℕ) (hp : N ≤ p) : supBelow f p = ⨆ k, f k := by
  unfold supBelow
  exact iSup_congr fun k => if_pos (lt_of_lt_of_le k.isLt hp)

/-- A running maximum that has seen the indices below `p` and meets the block `p … p + b − 1` has seen those below
    `p + b`. -/
theorem supBelow_step {N : ℕ} (f : Fin N → EReal) (p b : ℕ) (hpb : p + b ≤ N) :
    max (supBelow f p) (⨆ j : Fin b, f ⟨p + j.val, lt_of_lt_of_le (Nat.add_lt_add_left j.isLt _) hpb⟩) = supBelow f (p + b) := by
  unfold supBelow
  refine le_antisymm (max_le (iSup_le fun k => ?_) (iSup_le fun j => ?_)) (iSup_le fun k => ?_)
  · by_cases hk' : k.val < p
    · rw [if_pos hk']
      exact (le_of_eq (if_pos (by omega)).symm).trans (le_iSup (fun k : Fin N => if k.val < p + b then f k else ⊥) k)
    · rw [if_neg hk']; exact bot_le
  · refine (le_of_eq (if_pos ?_).symm).trans
      (le_iSup (fun k : Fin N => if k.val < p + b then f k else ⊥) ⟨p + j.val, lt_of_lt_of_le (Nat.add_lt_add_left j.isLt _) hpb⟩)
    show p + j.val < p + b
    exact Nat.add_lt_add_left j.isLt _
  · by_cases hk : k.val < p + b
    · rw [if_pos hk]
      by_cases hk' : k.val < p
      · exact ((le_of_eq (if_pos hk').symm).trans (le_iSup (fun k : Fin N => if k.val < p then f k else ⊥) k)).trans (le_max_left _ _)
      · refine ((le_of_eq (congrArg f (Fin.ext ?_))).trans
          (le_iSup (fun j : Fin b => f ⟨p + j.val, lt_of_lt_of_le (Nat.add_lt_add_left j.isLt _) hpb⟩) ⟨k.val - p, by omega⟩)).trans (le_max_right _ _)
        show k.val = p + (k.val - p)
        omega
    · rw [if_neg hk]; exact bot_le

end Idealize.ShloMosaic.LibSup

end
-- ==== Proof.Scan.lean ====
import proofs.«103898_j40956808135241_2_alg».proof.Proof.LibInf
import proofs.«103898_j40956808135241_2_alg».proof.Proof.LibSup

/-!
# A running minimum and maximum over eight blocks of 1024 columns

The kernel scans the 8192 sample columns in eight blocks of 1024: it starts from `+∞` (resp. `-∞`) and after each
block takes the minimum (resp. maximum) of what it carries and the block's own minimum (resp. maximum). What it
carries after `k` blocks is the infimum (supremum) over the first `1024·k` columns, so after all eight it is the
infimum (supremum) over all of them.
-/

noncomputable section

namespace Cert.Scan

open Idealize.ShloMosaic Idealize.ShloMosaic.LibInf Idealize.ShloMosaic.LibSup

/-- What a running minimum carries after `k` blocks with minima `B 0, …, B (k-1)`. -/
def runMin (B : ℕ → EReal) : ℕ → EReal
  | 0 => ⊤
  | k + 1 => min (runMin B k) (B k)

/-- What a running maximum carries after `k` blocks with maxima `B 0, …, B (k-1)`. -/
def runMax (B : ℕ → EReal) : ℕ → EReal
  | 0 => ⊥
  | k + 1 => max (runMax B k) (B k)

theorem col_lt {k : ℕ} (hk : k < 8) (q : Fin 1024) : 1024 * k + q.val < 8192 := by
  have := q.isLt; omega

/-- After `k ≤ 8` blocks the running minimum is the infimum over the columns below `1024·k`. -/
theorem runMin_eq (g : Fin 8192 → EReal) (B : ℕ → EReal)
    (hB : ∀ k (hk : k < 8), B k = ⨅ q : Fin 1024, g ⟨1024 * k + q.val, col_lt hk q⟩) :
    ∀ k, k ≤ 8 → runMin B k = infBelow g (1024 * k)
  | 0, _ => (infBelow_zero g).symm
  | k + 1, hk => by
    have hk' : k < 8 := hk
    show min (runMin B k) (B k) = _
    rw [runMin_eq g B hB k (Nat.le_of_lt hk'), hB k hk', Nat.mul_succ]
    exact infBelow_step g (1024 * k) 1024 (by omega)

/-- After all eight blocks it is the infimum over all 8192 columns. -/
theorem runMin_all (g : Fin 8192 → EReal) (B : ℕ → EReal)
    (hB : ∀ k (hk : k < 8), B k = ⨅ q : Fin 1024, g ⟨1024 * k + q.val, col_lt hk q⟩) :
    runMin B 8 = ⨅ j, g j := by
  rw [runMin_eq g B hB 8 le_rfl]
  exact infBelow_all g _ (by decide)

/-- After `k ≤ 8` blocks the running maximum is the supremum over the columns below `1024·k`. -/
theorem runMax_eq (g : Fin 8192 → EReal) (B : ℕ → EReal)
    (hB : ∀ k (hk : k < 8), B k = ⨆ q : Fin 1024, g ⟨1024 * k + q.val, col_lt hk q⟩) :
    ∀ k, k ≤ 8 → runMax B k = supBelow g (1024 * k)
  | 0, _ => (supBelow_zero g).symm
  | k + 1, hk => by
    have hk' : k < 8 := hk
    show max (runMax B k) (B k) = _
    rw [runMax_eq g B hB k (Nat.le_of_lt hk'), hB k hk', Nat.mul_succ]
    exact supBelow_step g (1024 * k) 1024 (by omega)

/-- After all eight blocks it is the supremum over all 8192 columns. -/
theorem runMax_all (g : Fin 8192 → EReal) (B : ℕ → EReal)
    (hB : ∀ k (hk : k < 8), B k = ⨆ q : Fin 1024, g ⟨1024 * k + q.val, col_lt hk q⟩) :
    runMax B 8 = ⨆ j, g j := by
  rw [runMax_eq g B hB 8 le_rfl]
  exact supBelow_all g _ (by decide)

/-- The eight-fold form: block minima `b 0, …, b 7` carried from `+∞` give the infimum over all columns. -/
theorem min_eight (g : Fin 8192 → EReal) (b : (k : ℕ) → k < 8 → EReal)
    (hb : ∀ k (hk : k < 8), b k hk = ⨅ q : Fin 1024, g ⟨1024 * k + q.val, col_lt hk q⟩) :
    min (min (min (min (min (min (min (min ⊤ (b 0 (by decide))) (b 1 (by decide))) (b 2 (by decide))) (b 3 (by decide)))
      (b 4 (by decide))) (b 5 (by decide))) (b 6 (by decide))) (b 7 (by decide)) = ⨅ j, g j := by
  have h := runMin_all g (fun k => if hk : k < 8 then b k hk else ⊤) (fun k hk => by rw [dif_pos hk]; exact hb k hk)
  rw [← h]
  simp only [runMin]
  rfl

/-- The eight-fold form for maxima, carried from `-∞`. -/
theorem max_eight (g : Fin 8192 → EReal) (b : (k : ℕ) → k < 8 → EReal)
    (hb : ∀ k (hk : k < 8), b k hk = ⨆ q : Fin 1024, g ⟨1024 * k + q.val, col_lt hk q⟩) :
    max (max (max (max (max (max (max (max ⊥ (b 0 (by decide))) (b 1 (by decide))) (b 2 (by decide))) (b 3 (by decide)))
      (b 4 (by decide))) (b 5 (by decide))) (b 6 (by decide))) (b 7 (by decide)) = ⨆ j, g j := by
  have h := runMax_all g (fun k => if hk : k < 8 then b k hk else ⊥) (fun k hk => by rw [dif_pos hk]; exact hb k hk)
  rw [← h]
  simp only [runMax]
  rfl

end Cert.Scan

end
-- ==== Proof.BlockRow.lean ====
import proofs.«103898_j40956808135241_2_alg».proof.Proof.BlockTerms
import proofs.«103898_j40956808135241_2_alg».proof.Proof.Scan
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

/-!
# The body's value at one anchor row, on the extended reals

For anchor row `p` of the block, with `a p d` the normalised anchor entries, `S j d` the resident sample rows and
`ℓ`, `L j` the labels, the body stores

  `max ((⨆ j, if ℓ = L j then -∞ else ∑ d, a p d · S j d) − (⨅ j, if ℓ = L j then ∑ d, a p d · S j d else +∞) + margin) 0`,

the supremum and the infimum over all 8192 sample rows: each slab's masked row-minimum is the infimum over the slab's
1024 columns, and the minima carried from slab to slab are the infimum over the columns seen so far.
-/

noncomputable section

namespace Cert.KernelIdeal.BlockRow

open Cert.KernelIdeal Cert.KernelIdeal.Gen Cert.KernelIdeal.BlockTerms Cert.Scan
open Idealize.ShloMosaic Idealize.ShloMosaic.ValueIdx Idealize.SL.Sem
open Idealize.ShloMosaic.LibInf Idealize.ShloMosaic.LibSup

/-! ## Layout operations of a column read at an index -/

section Layout
variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast along the rows of `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The pieces of a slab's step at an index -/

/-- A `minimumf` reduction over one axis, read on the extended reals: the `min`-fold from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The same for `maximumf`, with the accumulator spelt as the extended real it denotes. -/
theorem multiReduction_maximumf_single' {s t : Shape} {a : Fin s.rank} {φ : FTy} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Finset.univ : Finset (Fin (s.size a))).fold max (Ideal.ofBits φ acc) (src ∘ h.lift j) :=
  Ideal.multiReduction_maximumf_single src acc h hφ hacc j

/-- The stand-in for `+∞` denotes `+∞`. -/
theorem named_pos : Named.named (F := Ideal) κ "pos_big" (φ := .f32) 0x7149F2CA#32 = (⊤ : EReal) :=
  IdealRules.named_const.ideal_named_scalar _ _ _ _ rfl

/-- The stand-in for `-∞` denotes `-∞`. -/
theorem named_neg : Named.named (F := Ideal) κ "neg_big" (φ := .f32) 0xF149F2CA#32 = (⊥ : EReal) :=
  IdealRules.named_const.ideal_named_scalar _ _ _ _ rfl

/-- A choice on a word-equality test is a choice on the equality. -/
theorem select_cmpi_eq {α : Type} (u v : BitVec 32) (x y : α) :
    Scalar.select (IntOp.cmpi .eq u v) x y = if u = v then x else y := by
  unfold Scalar.select IntOp.cmpi
  by_cases h : u = v
  · subst h; simp
  · have hb : (u == v) = false := by simpa using h
    simp [hb, h]

/-- The row coordinate of the left operand's index is the output's row. -/
theorem lhs_row (i : S1024x1024.Idx) (c : dot_S1024x128_S1024x128_S1024x1024_1_1_0_0_n_n.contr.Idx) : (dot_S1024x128_S1024x128_S1024x1024_1_1_0_0_n_n.lhsIdx i c 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl

/-- The row coordinate of the right operand's index is the output's column: the product contracts both operands' last axes. -/
theorem rhs_row (i : S1024x1024.Idx) (c : dot_S1024x128_S1024x128_S1024x1024_1_1_0_0_n_n.contr.Idx) : (dot_S1024x128_S1024x128_S1024x1024_1_1_0_0_n_n.rhsIdx i c 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl

/-- The similarity of anchor row `p` and slab row `q` is their inner product. -/
theorem simBlk_apply (v9 : FVec Ideal S1024x128 .bf16) (s : Vec Ideal S1024x128 .bf16) (p q : Fin 1024) :
    simBlk (F := Ideal) v9 s (ix2 p q) = ∑ d : Fin 128, v9 (ix2 p d) * s (ix2 q d) := by
  unfold simBlk
  rw [shapeCast_self]
  simp only [matmul]
  rw [Ideal.matmul_constant_zero_apply,
    ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k :=
    funext fun a => Fin.ext (by
      match a with
      | ⟨0, _⟩ => exact lhs_row _ _
      | ⟨1, _⟩ => exact (dot_S1024x128_S1024x128_S1024x1024_1_1_0_0_n_n.lhsIdx_val_of_single rfl _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k :=
    funext fun a => Fin.ext (by
      match a with
      | ⟨0, _⟩ => exact rhs_row _ _
      | ⟨1, _⟩ => exact (dot_S1024x128_S1024x128_S1024x1024_1_1_0_0_n_n.rhsIdx_val_of_single rfl _ _).trans hk)
  rw [el, er]

/-- The mask at `(p, q)` tests anchor row `p`'s label against slab row `q`'s. -/
theorem sameBlk_apply (v11 : IVec S1024x1 32) (l : IVec S1x1024 32) (p q : Fin 1024) :
    sameBlk v11 l (ix2 p q) = IntOp.cmpi .eq (v11 (ix2 p (0 : Fin 1))) (l (ix2 (0 : Fin 1) q)) := by
  unfold sameBlk
  show IntOp.cmpi .eq (broadcastTo S1024x1024 v11 broadcasts_S1024x1_S1024x1024 (ix2 p q))
    (broadcastTo S1024x1024 (shapeCast S1x1024 l shapeCasts_S1x1024_S1x1024) broadcasts_S1x1024_S1024x1024 (ix2 p q)) = _
  rw [broadcastTo_a1_ab_apply, broadcastTo_1b_ab_apply, shapeCast_self]

theorem lift_row (p : Fin 1024) (q : Fin 1024) :
    reduces_S1024x1024_S1024.lift (ix1 p) q = ix2 p q :=
  funext fun a => Fin.ext (by match a with | ⟨0, _⟩ => rfl | ⟨1, _⟩ => rfl)

/-- A row-minimum of a 1024 × 1024 matrix from `+∞` is the infimum of the row. -/
theorem rowMin_apply (src : FVec Ideal S1024x1024 .f32) (hφ : FKind.Formats .f32)
    (hacc : (0x7F800000#32 : BitVec 32) = FKind.minimumf.neutral .f32 hφ) (p : Fin 1024) :
    multiReduction .minimumf [1] S1024 src 0x7F800000#32 reduces_S1024x1024_S1024 hφ hacc (ix1 p) = ⨅ q : Fin 1024, src (ix2 p q) := by
  refine (multiReduction_minimumf_single src 0x7F800000#32 reduces_S1024x1024_S1024 hφ hacc (ix1 p)).trans ?_
  rw [fold_min_pinf]
  exact iInf_congr fun q => congrArg src (lift_row p q)

/-- A row-maximum of a 1024 × 1024 matrix from `-∞` is the supremum of the row. -/
theorem rowMax_apply (src : FVec Ideal S1024x1024 .f32) (hφ : FKind.Formats .f32)
    (hacc : (0xFF800000#32 : BitVec 32) = FKind.maximumf.neutral .f32 hφ) (p : Fin 1024) :
    multiReduction .maximumf [1] S1024 src 0xFF800000#32 reduces_S1024x1024_S1024 hφ hacc (ix1 p) = ⨆ q : Fin 1024, src (ix2 p q) := by
  refine (multiReduction_maximumf_single' src 0xFF800000#32 reduces_S1024x1024_S1024 hφ hacc (ix1 p)).trans ?_
  rw [fold_max_ninf]
  exact iSup_congr fun q => congrArg src (lift_row p q)

/-- A slab's masked row-minimum at anchor row `p`: the infimum over the slab's rows of the similarity where the labels
    agree, `+∞` where they do not. -/
theorem blkMin_apply (v9 : FVec Ideal S1024x128 .bf16) (v11 : IVec S1024x1 32) (s : Vec Ideal S1024x128 .bf16)
    (l : IVec S1x1024 32) (p : Fin 1024) (u : Fin 1) :
    blkMin (F := Ideal) v9 v11 s l (ix2 p u)
      = ⨅ q : Fin 1024, if v11 (ix2 p (0 : Fin 1)) = l (ix2 (0 : Fin 1) q) then ∑ d : Fin 128, v9 (ix2 p d) * s (ix2 q d) else ⊤ := by
  unfold blkMin
  rw [shapeCast_a_a1_apply]
  refine (rowMin_apply _ _ _ p).trans (iInf_congr fun q => ?_)
  rw [select_apply, sameBlk_apply, simBlk_apply, broadcast_apply, named_pos, select_cmpi_eq]

/-- A slab's masked row-maximum at anchor row `p`: the supremum over the slab's rows of the similarity where the labels
    differ, `-∞` where they agree. -/
theorem blkMax_apply (v9 : FVec Ideal S1024x128 .bf16) (v11 : IVec S1024x1 32) (s : Vec Ideal S1024x128 .bf16)
    (l : IVec S1x1024 32) (p : Fin 1024) (u : Fin 1) :
    blkMax (F := Ideal) v9 v11 s l (ix2 p u)
      = ⨆ q : Fin 1024, if v11 (ix2 p (0 : Fin 1)) = l (ix2 (0 : Fin 1) q) then ⊥ else ∑ d : Fin 128, v9 (ix2 p d) * s (ix2 q d) := by
  unfold blkMax
  rw [shapeCast_a_a1_apply]
  refine (rowMax_apply _ _ _ p).trans (iSup_congr fun q => ?_)
  rw [select_apply, sameBlk_apply, simBlk_apply, broadcast_apply, named_neg, select_cmpi_eq]

/-- Row `q` of slab `k` is row `1024·k + q` of the resident matrix. -/
theorem slab_apply (x2 : Vec Ideal S8192x128 .bf16) (k : ℕ) (hk : k < 8) (q : Fin 1024) (d : Fin 128) :
    slab x2 k hk (ix2 q d) = x2 (ix2 (⟨1024 * k + q.val, col_lt hk q⟩ : Fin 8192) d) := by
  unfold slab
  refine congrArg x2 (funext fun a => Fin.ext ?_)
  match a with
  | ⟨0, _⟩ => show 1024 * k + 1 * q.val = 1024 * k + q.val; rw [Nat.one_mul]
  | ⟨1, _⟩ => show 0 + 1 * d.val = d.val; rw [Nat.one_mul, Nat.zero_add]

/-- Label `q` of slab `k` is label `1024·k + q`. -/
theorem labs_apply (x3 : Vec Ideal S1x8192 .i32) (k : ℕ) (hk : k < 8) (q : Fin 1024) :
    labs x3 k hk (ix2 (0 : Fin 1) q) = x3 (ix2 (0 : Fin 1) (⟨1024 * k + q.val, col_lt hk q⟩ : Fin 8192)) := by
  unfold labs
  refine congrArg x3 (funext fun a => Fin.ext ?_)
  match a with
  | ⟨0, _⟩ => show 0 + 1 * 0 = 0; rfl
  | ⟨1, _⟩ => show 1024 * k + 1 * q.val = 1024 * k + q.val; rw [Nat.one_mul]

/-! ## The anchor block's normalisation at an index -/

/-- A row sum of a 1024 × 128 block is the sum over the row's 128 entries. -/
theorem rowSum_apply (src : FVec Ideal S1024x128 .f32) (hφ : FKind.Formats .f32)
    (hacc : (0x00000000#32 : BitVec 32) = FKind.add.neutral .f32 hφ) (p : Fin 1024) :
    multiReduction .add [1] S1024 src 0x00000000#32 reduces_S1024x128_S1024 hφ hacc (ix1 p) = ∑ k : Fin 128, src (ix2 p k) := by
  refine (Ideal.multiReduction_add_single src 0x00000000#32 reduces_S1024x128_S1024 hφ hacc (ix1 p)).trans ?_
  exact Finset.sum_congr rfl fun k _ => congrArg src (funext fun a => Fin.ext (by match a with | ⟨0, _⟩ => rfl | ⟨1, _⟩ => rfl))

/-- Entry `(p, d)` of the normalised anchor block: the entry over the larger of its row's norm and `ε`. -/
theorem pay2_apply (x0 : Vec Ideal S1024x128 .f32) (p : Fin 1024) (d : Fin 128) :
    k0_pay2 (F := Ideal) x0 (ix2 p d)
      = Ideal.div (x0 (ix2 p d)) (max (Ideal.sqrt (∑ k : Fin 128, x0 (ix2 p k) * x0 (ix2 p k))) (Ideal.ofBits .f32 0x2B8CBCCC#32)) := by
  unfold k0_pay2
  show Ideal.div (x0 (ix2 p d)) (broadcastTo S1024x128 _ broadcasts_S1024x1_S1024x128 (ix2 p d)) = _
  rw [broadcastTo_a1_ab_apply]
  show Ideal.div _ (max (Ideal.sqrt (shapeCast S1024x1 _ shapeCasts_S1024_S1024x1 (ix2 p (0 : Fin 1)))) (Ideal.ofBits .f32 0x2B8CBCCC#32)) = _
  rw [shapeCast_a_a1_apply]
  exact congrArg (fun z => Ideal.div (x0 (ix2 p d)) (max (Ideal.sqrt z) (Ideal.ofBits .f32 0x2B8CBCCC#32))) (rowSum_apply _ _ _ p)

end Cert.KernelIdeal.BlockRow

end
-- ==== Proof.RowValue.lean ====
import proofs.«103898_j40956808135241_2_alg».proof.Proof.BlockRow

/-!
# The body's stored value at an anchor row: the scans closed

The minima (maxima) carried over the eight slabs are the infimum (supremum) over all 8192 sample rows; with them the
stored value at anchor row `p` is `max (sup − inf + margin) 0`.
-/

noncomputable section

namespace Cert.KernelIdeal.RowValue

open Cert.KernelIdeal Cert.KernelIdeal.Gen Cert.KernelIdeal.BlockTerms Cert.KernelIdeal.BlockRow Cert.Scan
open Idealize.ShloMosaic Idealize.ShloMosaic.ValueIdx Idealize.SL.Sem

/-- The label block is read as it is. -/
theorem pay3_apply (x1 : Vec Ideal S1024x1 .i32) (i : S1024x1.Idx) : k0_pay3 (F := Ideal) x1 i = x1 i := by
  unfold k0_pay3
  rw [shapeCast_self]

/-- After the eight slabs the carried minimum at row `p` is the infimum over all 8192 sample rows. -/
theorem posScan_row (v9 : FVec Ideal S1024x128 .bf16) (v11 : IVec S1024x1 32) (x2 : Vec Ideal S8192x128 .bf16)
    (x3 : Vec Ideal S1x8192 .i32) (p : Fin 1024) :
    posScan (F := Ideal) v9 v11 x2 x3 (ix2 p (0 : Fin 1))
      = ⨅ j : Fin 8192, if v11 (ix2 p (0 : Fin 1)) = x3 (ix2 (0 : Fin 1) j) then ∑ d : Fin 128, v9 (ix2 p d) * x2 (ix2 j d) else ⊤ := by
  have hb : ∀ k (hk : k < 8), blkMin (F := Ideal) v9 v11 (slab x2 k hk) (labs x3 k hk) (ix2 p (0 : Fin 1))
      = ⨅ q : Fin 1024, (fun j : Fin 8192 => if v11 (ix2 p (0 : Fin 1)) = x3 (ix2 (0 : Fin 1) j)
          then ∑ d : Fin 128, v9 (ix2 p d) * x2 (ix2 j d) else ⊤) ⟨1024 * k + q.val, col_lt hk q⟩ := fun k hk => by
    rw [blkMin_apply]
    refine iInf_congr fun q => ?_
    rw [labs_apply]
    simp only [slab_apply]
  unfold posScan
  rw [minimumf_apply, minimumf_apply, minimumf_apply, minimumf_apply, minimumf_apply, minimumf_apply, minimumf_apply, minimumf_apply,
    broadcast_apply, named_pos]
  exact min_eight _ (fun k hk => blkMin (F := Ideal) v9 v11 (slab x2 k hk) (labs x3 k hk) (ix2 p (0 : Fin 1))) hb

/-- After the eight slabs the carried maximum at row `p` is the supremum over all 8192 sample rows. -/
theorem negScan_row (v9 : FVec Ideal S1024x128 .bf16) (v11 : IVec S1024x1 32) (x2 : Vec Ideal S8192x128 .bf16)
    (x3 : Vec Ideal S1x8192 .i32) (p : Fin 1024) :
    negScan (F := Ideal) v9 v11 x2 x3 (ix2 p (0 : Fin 1))
      = ⨆ j : Fin 8192, if v11 (ix2 p (0 : Fin 1)) = x3 (ix2 (0 : Fin 1) j) then ⊥ else ∑ d : Fin 128, v9 (ix2 p d) * x2 (ix2 j d) := by
  have hb : ∀ k (hk : k < 8), blkMax (F := Ideal) v9 v11 (slab x2 k hk) (labs x3 k hk) (ix2 p (0 : Fin 1))
      = ⨆ q : Fin 1024, (fun j : Fin 8192 => if v11 (ix2 p (0 : Fin 1)) = x3 (ix2 (0 : Fin 1) j)
          then ⊥ else ∑ d : Fin 128, v9 (ix2 p d) * x2 (ix2 j d)) ⟨1024 * k + q.val, col_lt hk q⟩ := fun k hk => by
    rw [blkMax_apply]
    refine iSup_congr fun q => ?_
    rw [labs_apply]
    simp only [slab_apply]
  unfold negScan
  rw [maximumf_apply, maximumf_apply, maximumf_apply, maximumf_apply, maximumf_apply, maximumf_apply, maximumf_apply, maximumf_apply,
    broadcast_apply, named_neg]
  exact max_eight _ (fun k hk => blkMax (F := Ideal) v9 v11 (slab x2 k hk) (labs x3 k hk) (ix2 p (0 : Fin 1))) hb

/-- The body's stored value at anchor row `p`. -/
theorem bodyTerm_row (x0 : Vec Ideal S1024x128 .f32) (x1 : Vec Ideal S1024x1 .i32) (x2 : Vec Ideal S8192x128 .bf16)
    (x3 : Vec Ideal S1x8192 .i32) (p : Fin 1024) :
    bodyTerm (F := Ideal) x0 x1 x2 x3 (ix1 p)
      = max ((⨆ j : Fin 8192, if x1 (ix2 p (0 : Fin 1)) = x3 (ix2 (0 : Fin 1) j) then ⊥ else ∑ d : Fin 128, k0_pay2 (F := Ideal) x0 (ix2 p d) * x2 (ix2 j d))
          - (⨅ j : Fin 8192, if x1 (ix2 p (0 : Fin 1)) = x3 (ix2 (0 : Fin 1) j) then ∑ d : Fin 128, k0_pay2 (F := Ideal) x0 (ix2 p d) * x2 (ix2 j d) else ⊤)
          + Ideal.ofBits .f32 0x3E99999A#32) (Ideal.ofBits .f32 0x00000000#32) := by
  unfold bodyTerm
  rw [shapeCast_a1_a_apply, maximumf_apply, addf_apply, subf_apply, broadcast_apply, broadcast_apply, negScan_row, posScan_row]
  simp only [pay3_apply]
  rfl

end Cert.KernelIdeal.RowValue

end
-- ==== Proof.RowLoss.lean ====
import Idealize.ShloMosaic.PureOps.Ideal
import Idealize.ShloMosaic.Lib.ValueIdx

/-!
# The per-row triplet loss as one function of the four argument arrays

Over the extended reals. `unitRow x r d` is entry `d` of row `r` of `x` divided by the larger of the row's Euclidean
norm and the guard `ε`; `sim a s r j` is the inner product of anchor row `r` and sample row `j` so normalised. Row
`r`'s hardest positive is the infimum of `sim` over the samples with the anchor's label (`+∞` if there is none), its
hardest negative the supremum over the samples with another label (`-∞` if there is none), and its loss
`max (negative − positive + margin) 0`.
-/

noncomputable section

namespace Cert.RowLoss

open Idealize.ShloMosaic Idealize.ShloMosaic.ValueIdx

/-- Entry `d` of row `r`, the row scaled to unit length (its norm guarded from below by `ε`). -/
def unitRow (x : (⟨2, ![8192, 128]⟩ : Shape).Idx → EReal) (r : Fin 8192) (d : Fin 128) : EReal :=
  Ideal.div (x (ix2 r d))
    (max (Ideal.sqrt (∑ k : Fin 128, x (ix2 r k) * x (ix2 r k))) (Ideal.ofBits .f32 0x2B8CBCCC#32))

/-- The cosine similarity of anchor row `r` and sample row `j`. -/
def sim (a s : (⟨2, ![8192, 128]⟩ : Shape).Idx → EReal) (r j : Fin 8192) : EReal :=
  ∑ d : Fin 128, unitRow a r d * unitRow s j d

/-- Row `r`'s loss. -/
def rowLoss (a : (⟨2, ![8192, 128]⟩ : Shape).Idx → EReal) (al : (⟨1, ![8192]⟩ : Shape).Idx → BitVec 32)
    (s : (⟨2, ![8192, 128]⟩ : Shape).Idx → EReal) (sl : (⟨1, ![8192]⟩ : Shape).Idx → BitVec 32) (r : Fin 8192) : EReal :=
  max ((⨆ j : Fin 8192, if al (ix1 r) = sl (ix1 j) then ⊥ else sim a s r j)
      - (⨅ j : Fin 8192, if al (ix1 r) = sl (ix1 j) then sim a s r j else ⊤)
      + Ideal.ofBits .f32 0x3E99999A#32) (Ideal.ofBits .f32 0x00000000#32)

/-- The array of the 8192 row losses. -/
def lossRows (a : (⟨2, ![8192, 128]⟩ : Shape).Idx → EReal) (al : (⟨1, ![8192]⟩ : Shape).Idx → BitVec 32)
    (s : (⟨2, ![8192, 128]⟩ : Shape).Idx → EReal) (sl : (⟨1, ![8192]⟩ : Shape).Idx → BitVec 32) :
    (⟨1, ![8192]⟩ : Shape).Idx → EReal := fun i => rowLoss a al s sl (i 0)

end Cert.RowLoss

end
-- ==== Proof.RefRow.lean ====
import proofs.«103898_j40956808135241_2_alg».proof.Proof.Gen.ReferenceIdeal.Read
import proofs.«103898_j40956808135241_2_alg».proof.Proof.RowLoss
import proofs.«103898_j40956808135241_2_alg».proof.Proof.LibInf
import proofs.«103898_j40956808135241_2_alg».proof.Proof.LibSup
import Idealize.ShloMosaic.PureOps.Ideal.Laws
import Idealize.ShloMosaic.Lib.ValueIdx

/-!
# The reference's row losses are the specification's

Read one operation at a time on the extended reals: the two normalisations give `unitRow`, the product against the
transposed samples gives `sim`, the two masked reductions over the sample axis are the infimum and the supremum of
the specification, and the subtraction, the margin and the clamp at zero give `rowLoss`.
-/

noncomputable section

namespace Cert.ReferenceIdeal.RefRow

open Cert.ReferenceIdeal Cert.ReferenceIdeal.Gen Cert.ReferenceIdeal.Read Cert.RowLoss
open Idealize.ShloMosaic Idealize.ShloMosaic.ValueIdx Idealize.SL.Sem
open Idealize.ShloMosaic.LibInf Idealize.ShloMosaic.LibSup

/-- The anchors' normalisation at `(r, d)`. -/
theorem unit_anchor (x0 : (⟨S8192x128, .f32⟩ : BufTy).Contents (Elt Ideal)) (r : Fin 8192) (d : Fin 128) :
    val_main_v7 (F := Ideal) x0 (ix2 r d) = unitRow x0 r d := by
  have e6 : idx_main_v6 (ix2 r d) = ix2 r (0 : Fin 1) := funext fun a => Fin.ext (by match a with | ⟨0, _⟩ => rfl | ⟨1, _⟩ => rfl)
  have e2 : idx_main_v2 (ix2 r (0 : Fin 1)) = ix1 r := funext fun a => Fin.ext (by match a with | ⟨0, _⟩ => rfl)
  have e1 : ∀ k, idx_main_v1 (ix1 r) k = ix2 r k := fun k => funext fun a => Fin.ext (by match a with | ⟨0, _⟩ => rfl | ⟨1, _⟩ => rfl)
  rw [val_main_v7_apply, val_main_v6_apply, e6, val_main_v5_apply, val_main_v3_apply, val_main_v2_apply, e2, val_main_v1_apply,
    val_main_v4_apply, val_main_cst_0_apply, val_main_cst_apply]
  simp only [e1, val_main_v0_apply, Ideal.hostDivf_def, Ideal.maximumf_def, Ideal.hostUnary_sqrt_def, Ideal.mulf_def, Ideal.ofBits_def,
    Ideal.ofBits_zero_f32, zero_add]
  rfl

/-- The samples' normalisation at `(j, d)`. -/
theorem unit_sample (x2 : (⟨S8192x128, .f32⟩ : BufTy).Contents (Elt Ideal)) (j : Fin 8192) (d : Fin 128) :
    val_main_v15 (F := Ideal) x2 (ix2 j d) = unitRow x2 j d := by
  have e14 : idx_main_v14 (ix2 j d) = ix2 j (0 : Fin 1) := funext fun a => Fin.ext (by match a with | ⟨0, _⟩ => rfl | ⟨1, _⟩ => rfl)
  have e10 : idx_main_v10 (ix2 j (0 : Fin 1)) = ix1 j := funext fun a => Fin.ext (by match a with | ⟨0, _⟩ => rfl)
  have e9 : ∀ k, idx_main_v9 (ix1 j) k = ix2 j k := fun k => funext fun a => Fin.ext (by match a with | ⟨0, _⟩ => rfl | ⟨1, _⟩ => rfl)
  rw [val_main_v15_apply, val_main_v14_apply, e14, val_main_v13_apply, val_main_v11_apply, val_main_v10_apply, e10, val_main_v9_apply,
    val_main_v12_apply, val_main_cst_2_apply, val_main_cst_1_apply]
  simp only [e9, val_main_v8_apply, Ideal.hostDivf_def, Ideal.maximumf_def, Ideal.hostUnary_sqrt_def, Ideal.mulf_def, Ideal.ofBits_def,
    Ideal.ofBits_zero_f32, zero_add]
  rfl

/-- The similarity matrix at `(r, j)`. -/
theorem sim_apply (x0 x2 : (⟨S8192x128, .f32⟩ : BufTy).Contents (Elt Ideal)) (r j : Fin 8192) :
    val_main_v17 (F := Ideal) x0 x2 (ix2 r j) = sim x0 x2 r j := by
  rw [val_main_v17_apply]
  unfold sim
  refine Finset.sum_congr rfl fun k _ => ?_
  have el : lidx_main_v17 (ix2 r j) k = ix2 r k := funext fun a => Fin.ext (by match a with | ⟨0, _⟩ => rfl | ⟨1, _⟩ => rfl)
  have e16 : idx_main_v16 (ridx_main_v17 (ix2 r j) k) = ix2 j k := funext fun a => Fin.ext (by match a with | ⟨0, _⟩ => rfl | ⟨1, _⟩ => rfl)
  rw [el, val_main_v16_apply, e16, unit_anchor, unit_sample]

/-- The same-label mask at `(r, j)`. -/
theorem same_apply (x1 x3 : (⟨S8192, .i32⟩ : BufTy).Contents (Elt Ideal)) (r j : Fin 8192) :
    val_main_v22 (F := Ideal) x1 x3 (ix2 r j) = IntOp.cmpi .eq (x1 (ix1 r)) (x3 (ix1 j)) := by
  have ea : idx_main_v18 (idx_main_v20 (ix2 r j)) = ix1 r := funext fun a => Fin.ext (by match a with | ⟨0, _⟩ => rfl)
  have eb : idx_main_v19 (idx_main_v21 (ix2 r j)) = ix1 j := funext fun a => Fin.ext (by match a with | ⟨0, _⟩ => rfl)
  rw [val_main_v22_apply, val_main_v20_apply, val_main_v18_apply, ea, val_main_v21_apply, val_main_v19_apply, eb]

/-- A choice on a word-equality test is a choice on the equality. -/
theorem select_cmpi_eq {α : Type} (u v : BitVec 32) (x y : α) :
    Scalar.select (IntOp.cmpi .eq u v) x y = if u = v then x else y := by
  unfold Scalar.select IntOp.cmpi
  by_cases h : u = v
  · subst h; simp
  · have hb : (u == v) = false := by simpa using h
    simp [hb, h]

theorem red : S8192x8192.Reduces [1] S8192 := by decide

theorem lift_row (r j : Fin 8192) : red.lift (ix1 r) j = ix2 r j :=
  funext fun a => Fin.ext (by match a with | ⟨0, _⟩ => rfl | ⟨1, _⟩ => rfl)

/-- A `min`-reduction of an 8192 × 8192 matrix over its columns from `+∞` is the infimum of the row. -/
theorem rowInf (x : S8192x8192.Idx → Ideal .f32) (init : S_.Idx → Ideal .f32)
    (hinit : init (Shape.Idx.first h_S_) = Ideal.ofBits .f32 0x7F800000#32) (r : Fin 8192) :
    Host.reduce (FloatOps.minimumf (F := Ideal) (φ := .f32)) x init reducesTo_S8192x8192_S8192_d1 h_S_ (ix1 r)
      = ⨅ j : Fin 8192, x (ix2 r j) := by
  refine (Host.reduce_eq_fold_single (FloatOps.minimumf (F := Ideal) (φ := .f32)) x init reducesTo_S8192x8192_S8192_d1 red h_S_ (ix1 r)).trans ?_
  rw [hinit]
  exact (fold_min_pinf _).trans (iInf_congr fun j => congrArg x (lift_row r j))

/-- A `max`-reduction of an 8192 × 8192 matrix over its columns from `-∞` is the supremum of the row. -/
theorem rowSup (x : S8192x8192.Idx → Ideal .f32) (init : S_.Idx → Ideal .f32)
    (hinit : init (Shape.Idx.first h_S_) = Ideal.ofBits .f32 0xFF800000#32) (r : Fin 8192) :
    Host.reduce (FloatOps.maximumf (F := Ideal) (φ := .f32)) x init reducesTo_S8192x8192_S8192_d1 h_S_ (ix1 r)
      = ⨆ j : Fin 8192, x (ix2 r j) := by
  refine (Host.reduce_eq_fold_single (FloatOps.maximumf (F := Ideal) (φ := .f32)) x init reducesTo_S8192x8192_S8192_d1 red h_S_ (ix1 r)).trans ?_
  rw [hinit]
  exact (fold_max_ninf _).trans (iSup_congr fun j => congrArg x (lift_row r j))

/-- The hardest positive of row `r`. -/
theorem pos_apply (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) (r : Fin 8192) :
    val_main_v24 (F := Ideal) x0 x1 x2 x3 (ix1 r) = ⨅ j : Fin 8192, if x1 (ix1 r) = x3 (ix1 j) then sim x0 x2 r j else ⊤ := by
  unfold val_main_v24
  refine (rowInf (val_main_v23 (F := Ideal) x0 x1 x2 x3) (val_main_cst_4 (F := Ideal)) rfl r).trans (iInf_congr fun j => ?_)
  rw [val_main_v23_apply, same_apply, sim_apply, val_main_call0_v0_apply, val_main_cst_3_apply, select_cmpi_eq]
  show (if x1 (ix1 r) = x3 (ix1 j) then sim x0 x2 r j else Ideal.ofBits .f32 0x7F800000#32) = _
  rw [ofBits_pinf]

/-- The hardest negative of row `r`. -/
theorem neg_apply (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) (r : Fin 8192) :
    val_main_v27 (F := Ideal) x0 x1 x2 x3 (ix1 r) = ⨆ j : Fin 8192, if x1 (ix1 r) = x3 (ix1 j) then ⊥ else sim x0 x2 r j := by
  unfold val_main_v27
  refine (rowSup (val_main_v26 (F := Ideal) x0 x1 x2 x3) (val_main_cst_6 (F := Ideal)) rfl r).trans (iSup_congr fun j => ?_)
  rw [val_main_v26_apply, same_apply, sim_apply, val_main_call1_v0_apply, val_main_v25_apply, val_main_cst_5_apply, select_cmpi_eq]
  show (if x1 (ix1 r) = x3 (ix1 j) then -(Ideal.ofBits .f32 0x7F800000#32) else sim x0 x2 r j) = _
  rw [ofBits_pinf, EReal.neg_top]

/-- The reference's array of row losses is the specification's. -/
theorem rows_eq (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) :
    val_main_v31 (F := Ideal) x0 x1 x2 x3 = lossRows x0 x1 x2 x3 := by
  funext i
  obtain ⟨r, rfl⟩ : ∃ r : Fin 8192, i = ix1 r := ⟨i 0, eq_ix1 i⟩
  rw [val_main_v31_apply, val_main_v30_apply, val_main_v28_apply, neg_apply, pos_apply, val_main_v29_apply, val_main_cst_7_apply,
    val_main_call2_v0_apply, val_main_call2_cst_apply]
  rfl

/-- The reference's result: the sum from zero of the specification's row losses, over 8192. -/
theorem mean_eq (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) :
    val_main_v33 (F := Ideal) x0 x1 x2 x3
      = (Host.divf (F := Ideal) (Host.reduceAdd (F := Ideal) (lossRows x0 x1 x2 x3 : FVec Ideal S8192 .f32)
            (constant (F := Ideal) S_ .f32 0x00000000#32) reducesTo_S8192_S_d0 h_S_)
          (constant (F := Ideal) S_ .f32 0x46000000#32) : FVec Ideal S_ .f32) := by
  unfold val_main_v33 val_main_v32
  rw [rows_eq]
  rfl

end Cert.ReferenceIdeal.RefRow

end
-- ==== Proof.LossArray.lean ====
import proofs.«103898_j40956808135241_2_alg».proof.Proof.Gen.KernelIdeal.Frame
import Idealize.ShloMosaic.Lib.Pipeline.Value
import proofs.«103898_j40956808135241_2_alg».proof.Proof.BodyValue
import proofs.«103898_j40956808135241_2_alg».proof.Proof.RowValue
import proofs.«103898_j40956808135241_2_alg».proof.Proof.RefRow
import Idealize.ShloMosaic.Lib.StableHlo.Run
set_option maxRecDepth 16384

noncomputable section

/-!
# The kernel's result array: the 8192 row losses

Grid point `t` holds anchor rows `1024·t … 1024·t + 1023` and their labels, the whole normalised sample matrix (which
the lines before the call computed: each sample row over the larger of its norm and `ε`) and all sample labels; it
writes back block `t` of the result. So what it writes is, row by row, the specification's loss of row `1024·t + p`,
and the eight blocks cover the array.
-/

namespace Cert.KernelIdeal.LossArray

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Cert.KernelIdeal.BlockTerms Cert.KernelIdeal.BlockRow Cert.KernelIdeal.RowValue Cert.KernelIdeal.BodyValue Cert.RowLoss
open Idealize.ShloMosaic.ValueIdx Idealize.ShloMosaic.StableHlo

variable (m : (ℓ : Loc nD τ sig) → Buf (Elt Ideal) ℓ) (ρ : Dev nD → PrngReg)

/-- The four argument arrays as launched. -/
abbrev anchors (c : Dev nD) : S8192x128.Idx → EReal := m ((c : Thread nD τ).loc main_arg0)
abbrev anchorLabels (c : Dev nD) : S8192.Idx → BitVec 32 := m ((c : Thread nD τ).loc main_arg1)
abbrev samples (c : Dev nD) : S8192x128.Idx → EReal := m ((c : Thread nD τ).loc main_arg2)
abbrev sampleLabels (c : Dev nD) : S8192.Idx → BitVec 32 := m ((c : Thread nD τ).loc main_arg3)

/-! ## What the lines before the call leave in the windows' arrays -/

/-- The anchor labels as a column. -/
theorem V_anchorLabels (c : Dev nD) :
    (V m c main_v0 : S8192x1.Idx → BitVec 32) = shapeCast S8192x1 (anchorLabels m c) shapeCasts_S8192_S8192x1 := by
  show StableHlo.after hostOps0 (fun b => m (c, b)) (Proc.devRef .tc main_v0) = _
  after_results
  rfl

/-- The sample labels as a row. -/
theorem V_sampleLabels (c : Dev nD) :
    (V m c main_v1 : S1x8192.Idx → BitVec 32) = shapeCast S1x8192 (sampleLabels m c) shapeCasts_S8192_S1x8192 := by
  show StableHlo.after hostOps0 (fun b => m (c, b)) (Proc.devRef .tc main_v1) = _
  after_results
  rfl

/-- The normalised samples: the same operations as the reference's own normalisation of the samples (the narrowing to
    bf16 is the identity on the extended reals). -/
theorem V_samples (c : Dev nD) :
    (V m c main_v10 : S8192x128.Idx → EReal) = Cert.ReferenceIdeal.Read.val_main_v15 (F := Ideal) (samples m c) := by
  show StableHlo.after hostOps0 (fun b => m (c, b)) (Proc.devRef .tc main_v10) = _
  after_results
  rfl

/-! ## The blocks at a grid point -/

/-- The printed index maps over the grid: the anchor windows and the result window move with the point, the resident
    windows stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = t.val :=
  (by decide +kernel : ∀ t : Fin grid0.N, _)

theorem row_lt (t : Fin cfg0.N) (p : Fin 1024) : 1024 * t.val + p.val < 8192 := by
  have hN : cfg0.N = 8 := N_0
  have := t.isLt; have := p.isLt; omega

/-- Entry `(p, d)` of the anchor block at point `t` is entry `(1024·t + p, d)` of the anchors. -/
theorem anchorBlk_apply (c : Dev nD) (t : Fin cfg0.N) (p : Fin 1024) (d : Fin 128) :
    iblk m c 0 t (ix2 p d) = anchors m c (ix2 (⟨1024 * t.val + p.val, row_lt t p⟩ : Fin 8192) d) := by
  obtain ⟨h0, h1, -⟩ := idx_facts t
  show V m c main_arg0 (((cfg0.win 0).blk t).view.emb (ix2 p d)) = _
  rw [V_main_arg0]
  refine congrArg (anchors m c) (funext fun a => Fin.ext ?_)
  match a with
  | ⟨0, _⟩ => show win0_0.index t (0 : Fin 2) * 1024 + 1 * p.val = 1024 * t.val + p.val; rw [h0]; omega
  | ⟨1, _⟩ => show win0_0.index t (1 : Fin 2) * 128 + 1 * d.val = d.val; rw [h1]; omega

/-- Label `p` of the anchor-label block at point `t` is label `1024·t + p`. -/
theorem anchorLabelBlk_apply (c : Dev nD) (t : Fin cfg0.N) (p : Fin 1024) :
    iblk m c 1 t (ix2 p (0 : Fin 1)) = anchorLabels m c (ix1 (⟨1024 * t.val + p.val, row_lt t p⟩ : Fin 8192)) := by
  obtain ⟨-, -, h0, h1, -⟩ := idx_facts t
  show V m c main_v0 (((cfg0.win 1).blk t).view.emb (ix2 p (0 : Fin 1))) = _
  rw [V_anchorLabels]
  refine shapeCast_apply _ _ _ _ ?_
  rw [Shape.rowMajor_val_two, Shape.rowMajor_val_one]
  show 1024 * t.val + p.val = (win0_1.index t (0 : Fin 2) * 1024 + 1 * p.val) * 1 + (win0_1.index t (1 : Fin 2) * 1 + 1 * 0)
  rw [h0, h1]; omega

/-- Row `j` of the resident sample block is the unit row `j` of the samples. -/
theorem sampleBlk_apply (c : Dev nD) (t : Fin cfg0.N) (j : Fin 8192) (d : Fin 128) :
    iblk m c 2 t (ix2 j d) = unitRow (samples m c) j d := by
  obtain ⟨-, -, -, -, h0, h1, -⟩ := idx_facts t
  show V m c main_v10 (((cfg0.win 2).blk t).view.emb (ix2 j d)) = _
  rw [V_samples, ← Cert.ReferenceIdeal.RefRow.unit_sample]
  refine congrArg _ (funext fun a => Fin.ext ?_)
  match a with
  | ⟨0, _⟩ => show win0_2.index t (0 : Fin 2) * 8192 + 1 * j.val = j.val; rw [h0]; omega
  | ⟨1, _⟩ => show win0_2.index t (1 : Fin 2) * 128 + 1 * d.val = d.val; rw [h1]; omega

/-- Label `j` of the resident label block is sample label `j`. -/
theorem sampleLabelBlk_apply (c : Dev nD) (t : Fin cfg0.N) (j : Fin 8192) :
    iblk m c 3 t (ix2 (0 : Fin 1) j) = sampleLabels m c (ix1 j) := by
  obtain ⟨-, -, -, -, -, -, h0, h1, -⟩ := idx_facts t
  show V m c main_v1 (((cfg0.win 3).blk t).view.emb (ix2 (0 : Fin 1) j)) = _
  rw [V_sampleLabels]
  refine shapeCast_apply _ _ _ _ ?_
  rw [Shape.rowMajor_val_two, Shape.rowMajor_val_one]
  show j.val = (win0_3.index t (0 : Fin 2) * 1 + 1 * 0) * 8192 + (win0_3.index t (1 : Fin 2) * 8192 + 1 * j.val)
  rw [h0, h1]; omega

/-- The normalised anchor block at `(p, d)` is the unit row `1024·t + p` of the anchors at `d`. -/
theorem unitBlk_apply (c : Dev nD) (t : Fin cfg0.N) (p : Fin 1024) (d : Fin 128) :
    k0_pay2 (F := Ideal) (iblk m c 0 t) (ix2 p d) = unitRow (anchors m c) ⟨1024 * t.val + p.val, row_lt t p⟩ d := by
  rw [pay2_apply, anchorBlk_apply]
  unfold unitRow
  exact congrArg (fun z => Ideal.div _ (max (Ideal.sqrt z) (Ideal.ofBits .f32 0x2B8CBCCC#32)))
    (Finset.sum_congr rfl fun k _ => by rw [anchorBlk_apply])

/-- What point `t` stores at row `p` of its block is the loss of row `1024·t + p`. -/
theorem point_row (c : Dev nD) (t : Fin cfg0.N) (p : Fin 1024) :
    bodyTerm (F := Ideal) (iblk m c 0 t) (iblk m c 1 t) (iblk m c 2 t) (iblk m c 3 t) (ix1 p)
      = rowLoss (anchors m c) (anchorLabels m c) (samples m c) (sampleLabels m c) ⟨1024 * t.val + p.val, row_lt t p⟩ := by
  have hsim : ∀ j : Fin 8192, (∑ d : Fin 128, k0_pay2 (F := Ideal) (iblk m c 0 t) (ix2 p d) * iblk m c 2 t (ix2 j d))
      = sim (anchors m c) (samples m c) ⟨1024 * t.val + p.val, row_lt t p⟩ j := fun j => by
    unfold sim
    exact Finset.sum_congr rfl fun d _ => by rw [unitBlk_apply, sampleBlk_apply]
  rw [bodyTerm_row]
  unfold rowLoss
  refine congrArg₂ max (congrArg₂ (· + ·) (congrArg₂ (· - ·) (iSup_congr fun j => ?_) (iInf_congr fun j => ?_)) rfl) rfl
  · rw [anchorLabelBlk_apply, sampleLabelBlk_apply, hsim]
  · rw [anchorLabelBlk_apply, sampleLabelBlk_apply, hsim]

/-! ## From the blocks to the array -/

/-- WHAT POINT `t` WRITES BACK is block `t` of the array of row losses. -/
theorem flushed_eq (c : Dev nD) (t : Fin cfg0.N) :
    (dats m 0 c).flushed 4 t = ((cfg0.win 4).blk t).view.read (Elt Ideal)
      (lossRows (anchors m c) (anchorLabels m c) (samples m c) (sampleLabels m c)) := by
  obtain ⟨-, -, -, -, -, -, -, -, h4⟩ := idx_facts t
  show (cfg0.win 4).cut (grid0.coords t) ((dats m 0 c).after 4 t) = _
  rw [after0_4]
  unfold outsAt0
  rw [out_eq_bodyTerm]
  funext y
  have hp : (y 0).val < 1024 := (y 0).isLt
  have hy : y = (ix1 (⟨(y 0).val, hp⟩ : Fin 1024) : S1024.Idx) := funext fun a => by match a with | ⟨0, _⟩ => rfl
  show bodyTerm (F := Ideal) (iblk m c 0 t) (iblk m c 1 t) (iblk m c 2 t) (iblk m c 3 t) y
    = rowLoss (anchors m c) (anchorLabels m c) (samples m c) (sampleLabels m c) ((((cfg0.win 4).blk t).view.emb y) 0)
  refine Eq.trans (congrArg (bodyTerm (F := Ideal) (iblk m c 0 t) (iblk m c 1 t) (iblk m c 2 t) (iblk m c 3 t)) hy) ?_
  rw [point_row]
  refine congrArg (rowLoss (anchors m c) (anchorLabels m c) (samples m c) (sampleLabels m c)) (Fin.ext ?_)
  show 1024 * t.val + (y 0).val = win0_4.index t (0 : Fin 1) * 1024 + 1 * (y 0).val
  rw [h4]; omega

/-- An index of the array is in point `t`'s block iff it is in the block's range. -/
theorem mem_blk (t : Fin cfg0.N) (i : S8192.Idx) :
    i ∈ ((cfg0.win 4).blk t).view.set ↔ ∀ a : Fin 1, win0_4.index t a * S1024.size a ≤ (i a).val ∧ (i a).val < win0_4.index t a * S1024.size a + S1024.size a := by
  show i ∈ ((View.whole main_v11).slice (win0_4.rect t)).set ↔ _
  rw [View.set_slice_whole, Rect.mem_set_unit]
  exact Iff.rfl

/-- THE ARRAY after the run: the 8192 row losses (row `r` is written by point `r / 1024`). -/
theorem final (c : Dev nD) : (dats m 0 c).arrAt 4 cfg0.N
    = lossRows (anchors m c) (anchorLabels m c) (samples m c) (sampleLabels m c) :=
  (dats m 0 c).arrAt_eq_of_cover 4 _ (fun t _ => flushed_eq m c t) fun i => by
    have hN : cfg0.N = 8 := N_0
    have hi : (i 0).val < 8192 := (i 0).isLt
    refine ⟨⟨(i 0).val / 1024, by omega⟩, flush0_4 _, ?_⟩
    rw [mem_blk]
    intro a
    obtain ⟨-, -, -, -, -, -, -, -, h4⟩ := idx_facts ⟨(i 0).val / 1024, by omega⟩
    match a with
    | ⟨0, _⟩ =>
      show win0_4.index ⟨(i 0).val / 1024, _⟩ (0 : Fin 1) * 1024 ≤ (i 0).val ∧ (i 0).val < win0_4.index ⟨(i 0).val / 1024, _⟩ (0 : Fin 1) * 1024 + 1024
      rw [h4]
      show (i 0).val / 1024 * 1024 ≤ (i 0).val ∧ (i 0).val < (i 0).val / 1024 * 1024 + 1024
      omega

end Cert.KernelIdeal.LossArray

end
-- ==== Proof.KernelRun.lean ====
import proofs.«103898_j40956808135241_2_alg».proof.Proof.Gen.KernelIdeal.Frame
import Idealize.ShloMosaic.Lib.Pipeline.Value
import proofs.«103898_j40956808135241_2_alg».proof.Proof.LossArray
import Idealize.ShloMosaic.Lib.StableHlo.Run
set_option maxRecDepth 16384

noncomputable section

/-!
# The kernel's run, read: the mean of the row losses

After the call the program sums the 8192 row losses from zero and divides by 8192. The frame run gives every array of
the call after the run and every other buffer as the lines after the call leave it; the result buffer is those two
lines applied to the call's result array, which is the array of row losses.
-/

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Cert.RowLoss Cert.KernelIdeal.LossArray
open Idealize.ShloMosaic.ValueIdx Idealize.ShloMosaic.StableHlo

variable (m : (ℓ : Loc nD τ sig) → Buf (Elt Ideal) ℓ) (ρ : Dev nD → PrngReg)

/-- The two lines after the call: the sum from zero of the 8192 entries, over 8192. -/
def meanOf (v : FVec Ideal S8192 .f32) : FVec Ideal S_ .f32 :=
  Host.divf (Host.reduceAdd v (constant S_ .f32 0x00000000#32) reducesTo_S8192_S_d0 h_S_) (constant S_ .f32 0x46000000#32)

/-- What the lines after the call leave in the result buffer. -/
theorem tail_eq (c : Dev nD) :
    Pipeline.afterTail₀ cfgs (dats m) 0 (V0 m) [hostOps1] c main_v13
      = meanOf (lossRows (anchors m c) (anchorLabels m c) (samples m c) (sampleLabels m c)) := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v11)
      = lossRows (anchors m c) (anchorLabels m c) (samples m c) (sampleLabels m c) :=
    (Pipeline.withArrays_arr spec0 launch0.win.arr_inj c _ _ 4).trans (final m c)
  rw [e]
  rfl

/-- Every weakly fair execution of the idealized kernel program terminates with the result buffer at the mean of the
    row losses of the arguments, and the arguments unchanged. -/
theorem run : θ_run defs (onTc (τ := τ) (main (F := Ideal))) ⟨m, fun _ => 0, ρ⟩ fun r => ∀ c : Dev nD,
      r.2.mem ((c.tc : Thread nD τ).loc main_v13) = meanOf (lossRows (anchors m c) (anchorLabels m c) (samples m c) (sampleLabels m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  The triplet cosine loss with hardest-example mining: for 8192 anchor rows and 8192 sample rows of 128 entries, each
  row scaled to unit length (its Euclidean norm guarded from below by ε), the similarity of anchor `r` and sample `j`
  is their inner product; anchor `r`'s hardest positive is the least similarity over the samples carrying its label,
  its hardest negative the greatest similarity over the samples carrying another label, its loss
  `max (negative − positive + margin) 0`, and the result the mean of the 8192 losses.

  The kernel takes the anchors 1024 rows at a time; for each block it normalises the rows, then scans the normalised
  samples in eight slabs of 1024 rows, carrying each anchor row's minimum and maximum from slab to slab, the masked
  entries read as `+∞` and `-∞`. The reference forms the whole 8192 × 8192 similarity matrix and reduces each row
  once. Over the extended reals the two agree because a running minimum over consecutive blocks of columns is the
  infimum over all of them (and dually for the maximum): only the lattice laws of `min` and `max` are used, so
  the inputs' finiteness is never opened. Every other operation is the same on both sides, entry by entry: the
  normalisation, the inner products, the label test, the subtraction, the margin, the clamp at zero and the mean.

  The kernel's two stand-ins for `+∞` and `-∞` are named constants of its idealization; each of the eighteen places
  they occur is one conjunct of `preserves`.
-/
import proofs.«103898_j40956808135241_2_alg».proof.Defs
import proofs.«103898_j40956808135241_2_alg».proof.Proof.Gen.Kernel
import proofs.«103898_j40956808135241_2_alg».proof.Proof.Gen.Kernel.Skeleton
import proofs.«103898_j40956808135241_2_alg».proof.Proof.Gen.Kernel.Launch
import proofs.«103898_j40956808135241_2_alg».proof.Proof.Gen.Kernel.Points
import proofs.«103898_j40956808135241_2_alg».proof.Proof.Gen.Kernel.Frame
import proofs.«103898_j40956808135241_2_alg».proof.Proof.Gen.KernelIdeal
import proofs.«103898_j40956808135241_2_alg».proof.Proof.Gen.KernelIdeal.Skeleton
import proofs.«103898_j40956808135241_2_alg».proof.Proof.Gen.KernelIdeal.Launch
import proofs.«103898_j40956808135241_2_alg».proof.Proof.Gen.KernelIdeal.Points
import proofs.«103898_j40956808135241_2_alg».proof.Proof.Gen.KernelIdeal.Frame
import proofs.«103898_j40956808135241_2_alg».proof.Proof.Gen.ReferenceIdeal
import proofs.«103898_j40956808135241_2_alg».proof.Proof.Gen.ReferenceIdeal.Run
import proofs.«103898_j40956808135241_2_alg».proof.Proof.Gen.ReferenceIdeal.Read
import proofs.«103898_j40956808135241_2_alg».proof.Proof.Gen.Pre_finite_inputs
import proofs.«103898_j40956808135241_2_alg».proof.Proof.KernelRun
import proofs.«103898_j40956808135241_2_alg».proof.Proof.RefRow
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- Its idealization runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The stand-in for `+∞` is `+∞` in the table of named constants. -/
theorem pos_big : IdealRules.named_const.Statement Cert.KernelIdeal.κ "pos_big" .f32 0x7149F2CA#32 ⊤ :=
  IdealRules.named_const.statement Cert.KernelIdeal.κ "pos_big" .f32 0x7149F2CA#32 ⊤ rfl

/-- The stand-in for `-∞` is `-∞` in the table of named constants. -/
theorem neg_big : IdealRules.named_const.Statement Cert.KernelIdeal.κ "neg_big" .f32 0xF149F2CA#32 ⊥ :=
  IdealRules.named_const.statement Cert.KernelIdeal.κ "neg_big" .f32 0xF149F2CA#32 ⊥ rfl

/-- The initial carries and the eight slabs' two fills: nine pairs. -/
theorem preserves : Cert.preserves_Kernel_KernelIdeal :=
  ⟨pos_big, neg_big, pos_big, neg_big, pos_big, neg_big, pos_big, neg_big, pos_big, neg_big, pos_big, neg_big,
    pos_big, neg_big, pos_big, neg_big, pos_big, neg_big⟩

/-- Both programs end at the mean of the specification's row losses of the arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v33_eq _ _ _ _).trans (Cert.ReferenceIdeal.RefRow.mean_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
